-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42_1)) (v1 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_1) = v0 c
          ∧ r.2.mem ((c.tc : Thread Cert.KernelIdeal.nD Cert.KernelIdeal.τ).loc Cert.KernelIdeal.main_v42_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S64 .f32) (main_arg5 : FVec F S64x2 .f32) (main_arg6 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : FVec F S64x2 .f32) (main_arg6 : FVec F S2 .f32) (main_arg7 : IVec S800000 32) (main_arg8 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 68
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .bf16⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x1, .f32⟩
  | .hbm, ⟨47, _⟩ => ⟨S1x128, .f32⟩
  | .hbm, ⟨48, _⟩ => ⟨S50000x64, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .bf16⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S50000x1, .f32⟩
  | .hbm, ⟨64, _⟩ => ⟨S1x64, .f32⟩
  | .hbm, ⟨65, _⟩ => ⟨S1x2, .f32⟩
  | .hbm, ⟨66, _⟩ => ⟨S50000x64, .f32⟩
  | .hbm, ⟨67, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x64, .f32⟩
  | .local _ .vmem, ⟨15, _⟩ => ⟨S5000x64, .bf16⟩
  | .local _ .vmem, ⟨16, _⟩ => ⟨S5000x64, .bf16⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S64x2, .f32⟩
  | .local _ .vmem, ⟨23, _⟩ => ⟨S1x2, .f32⟩
  | .local _ .vmem, ⟨24, _⟩ => ⟨S5000x64, .f32⟩
  | .local _ .vmem, ⟨25, _⟩ => ⟨S5000x64, .f32⟩
  | .local _ .vmem, ⟨26, _⟩ => ⟨S5000x2, .f32⟩
  | .local _ .vmem, ⟨27, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42_0 : Ref sig .tc := ⟨.hbm, 66, rfl⟩
abbrev main_v42_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2_S1x2 : S2.ShapeCasts S1x2
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .bf16 = 32 ∨ (Rect.block (s := S50000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x2.size a ≤ S50000x2.size a
  hwx2_6 : ∀ i : grid2.Coords, EltTy.bits .f32 = 32 ∨ (Rect.block (s := S50000x2) S5000x2.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S5000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 102
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x64, .f32⟩
  | .hbm, ⟨74, _⟩ => ⟨S50000, .f32⟩
  | .hbm, ⟨75, _⟩ => ⟨S50000x1, .f32⟩
  | .hbm, ⟨76, _⟩ => ⟨S50000x64, .f32⟩
  | .hbm, ⟨77, _⟩ => ⟨S50000x64, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x64, .f32⟩
  | .hbm, ⟨87, _⟩ => ⟨S_, .f32⟩
  | .hbm, ⟨88, _⟩ => ⟨S50000x64, .f32⟩
  | .hbm, ⟨89, _⟩ => ⟨S800000x1, .i32⟩
  | .hbm, ⟨90, _⟩ => ⟨S50000x64, .f32⟩
  | .hbm, ⟨91, _⟩ => ⟨S50000, .f32⟩
  | .hbm, ⟨92, _⟩ => ⟨S50000x1, .f32⟩
  | .hbm, ⟨93, _⟩ => ⟨S50000x64, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | .hbm, ⟨98, _⟩ => ⟨S50000x2, .f32⟩
  | .hbm, ⟨99, _⟩ => ⟨S1x2, .f32⟩
  | .hbm, ⟨100, _⟩ => ⟨S50000x2, .f32⟩
  | .hbm, ⟨101, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x2_S50000x2_1_0_0_1_n_n_wf : DotDims.WF S50000x64 S64x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KRun.lean ====
/-
  The idealized kernel program's run with its two RESULT arrays named.

  The program is three kernel regions among stretches of host operations. Its run is the launch of that list of segments;
  after the last segment every unscoped buffer of a core holds the last boundary's contents (`Gen.W10`: the fold of the
  host stretches and of each region's write-backs through the program, from the launch memory). Reading the final state
  at the two result buffers, and at the nine arguments, gives the statement below: the results are `Gen.W10` at their
  references, the arguments are as launched.
-/
import proofs.«170401_j65687229826124_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result arrays at the last
    boundary's contents and the argument arrays as launched. -/
theorem run : θ_run defs (onTc (τ := τ) (main (F := F))) ⟨m, fun _ => 0, ρ⟩ (fun r => ∀ c : Dev nD,
      r.2.mem ((c.tc : Thread nD τ).loc main_v42_1) = W10 m ρ c (Proc.devRef .tc main_v42_1)
      ∧ r.2.mem ((c.tc : Thread nD τ).loc main_v42_0) = W10 m ρ c (Proc.devRef .tc main_v42_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v42_1 (by decide)),
       h c _ (mem_uc main_v42_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Named

end
-- ==== Proof.Layer1.lean ====
/-
  Region 0 (the first layer's dense transform), read as one whole-array function.

  A grid point t handles rows 5000·t … 5000·t + 4999. Its body scales each row of the x block by that row's degree
  factor, contracts the scaled row with the weight matrix into a zero accumulator, and stores the block; the changes of
  float format on the way are the identity on the extended reals. So entry (p, q) of the block is
      ∑ₖ (x[p, k] · s[p, 0]) · w[k, q],
  and, the ten blocks tiling the [50000, 128] result, the result array after the region is the same expression of the
  whole arrays (`scaledProduct`).
-/
import proofs.«170401_j65687229826124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

theorem hz : (![0, 0] : Fin 2 → Nat) = fun _ => 0 := funext fun a => by fin_cases a <;> rfl

/-- Rows scaled, then contracted: entry (i₀, i₁) is ∑ₖ (X[i₀, k] · S[i₀, 0]) · W[k, i₁]. -/
def scaledProduct (X : S50000x256.Idx → EReal) (S : S50000x1.Idx → EReal) (W : S256x128.Idx → EReal) : S50000x128.Idx → EReal :=
  fun i => ∑ k : Fin 256, (X (ix2 (⟨(i 0).val, (i 0).isLt⟩ : Fin 50000) k) * S (ix2 (⟨(i 0).val, (i 0).isLt⟩ : Fin 50000) (0 : Fin 1)))
    * W (ix2 k (⟨(i 1).val, (i 1).isLt⟩ : Fin 128))

/-! ## The matrix product's operand indices -/

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A column [5000, 1] broadcast along rows of length 256 reads, at (p, k), the column's entry p. -/
theorem bcast_col (v : S5000x1.Idx → EReal) (p : Fin 5000) (k : Fin 256) :
    broadcastTo S5000x256 v broadcasts_S5000x1_S5000x256 (ix2 p k) = v (ix2 p (0 : Fin 1)) :=
  broadcastTo_apply v broadcasts_S5000x1_S5000x256 (ix2 p k) (ix2 p (0 : Fin 1)) fun a => by
    match a with
    | ⟨0, _⟩ => show p.val = if (5000 : Nat) = 1 then 0 else p.val; rw [if_neg (by decide)]
    | ⟨1, _⟩ => show 0 = if (1 : Nat) = 1 then 0 else k.val; rw [if_pos rfl]

/-- The body's stored value at entry (p, q) of the block. -/
theorem pay_apply (x0 : Vec Ideal S5000x256 .f32) (x1 : Vec Ideal S5000x1 .f32) (x2 : Vec Ideal S256x128 .f32) (p : Fin 5000) (q : Fin 128) :
    k0_pay1 (F := Ideal) x0 x1 x2 (ix2 p q) = ∑ k : Fin 256, (x0 (ix2 p k) * x1 (ix2 p (0 : Fin 1))) * x2 (ix2 k q) := by
  unfold k0_pay1
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er]
  show (x0 (ix2 p k) * broadcastTo S5000x256 (shapeCast S5000x1 x1 shapeCasts_S5000x1_S5000x1) broadcasts_S5000x1_S5000x256 (ix2 p k)) * x2 (ix2 k q) = _
  rw [shapeCast_self, bcast_col]

/-! ## From the ten row blocks to the array -/

variable (V : (c : Dev nD) → (b : Ref sig .tc) → Buf (Elt Ideal) ((c : Thread nD τ).loc b))

/-- The printed index maps, decided over the grid: x, the degree column and the result move with the grid point along
    the rows; the weight matrix stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- x's block at point t is rows 5000·t … of x. -/
theorem blk_x (c : Dev nD) (t : Fin cfg0.N) (x : S5000x256.Idx) (k : S50000x256.Idx)
    (hk0 : (k 0).val = 5000 * t.val + (x 0).val) (hk1 : (k 1).val = (x 1).val) :
    (iblk0 V c 0 t : Vec Ideal S5000x256 .f32) x = (V c main_arg0 : S50000x256.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 256 + 1 * (x 1).val = (k 1).val; rw [e1, hk1]; omega

/-- The degree column's block at point t is rows 5000·t … of the column. -/
theorem blk_s (c : Dev nD) (t : Fin cfg0.N) (x : S5000x1.Idx) (k : S50000x1.Idx)
    (hk0 : (k 0).val = 5000 * t.val + (x 0).val) (hk1 : (k 1).val = (x 1).val) :
    (iblk0 V c 1 t : Vec Ideal S5000x1 .f32) x = (V c main_v11 : S50000x1.Idx → EReal) k := by
  obtain ⟨-, -, e0, e1, -⟩ := idx_facts t
  unfold iblk0
  rw [View.read_apply]
  show V c main_v11 _ = V c main_v11 _
  congr 1
  funext a
  apply Fin.ext
  match a with
  | ⟨0, _⟩ => show win0_1.index t 0 * 5000 + 1 * (x 0).val = (k 0).val; rw [e0, hk0]; omega
  | ⟨1, _⟩ => show win0_1.index t 1 * 1 + 1 * (x 1).val = (k 1).val; rw [e1, hk1]; omega

/-- The weight matrix's block at every point is the matrix. -/
theorem blk_w (c : Dev nD) (t : Fin cfg0.N) (x : S256x128.Idx) :
    (iblk0 V c 2 t : Vec Ideal S256x128 .f32) x = (V c main_arg1 : S256x128.Idx → EReal) x := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t 0 * 256 + 1 * (x 0).val = (x 0).val; rw [e0]; omega
  | ⟨1, _⟩ => show win0_2.index t 1 * 128 + 1 * (x 1).val = (x 1).val; rw [e1]; omega

/-- What point t writes back is block t of `scaledProduct` of the arrays the region finds. -/
theorem flushed_eq (c : Dev nD) (t : Fin cfg0.N) :
    (dat0 V c).flushed 3 t = ((cfg0.win 3).blk t).view.read (Elt Ideal) (scaledProduct (V c main_arg0) (V c main_v11) (V c main_arg1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  obtain ⟨-, -, -, -, -, -, e6, e7⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = scaledProduct (V c main_arg0) (V c main_v11) (V c main_arg1) (((cfg0.win 3).blk t).view.emb (ix2 p q))
  rw [pay_apply (iblk0 V c 0 t) (iblk0 V c 1 t) (iblk0 V c 2 t) p q]
  have h0 : ((((cfg0.win 3).blk t).view.emb (ix2 p q)) 0).val = 5000 * t.val + p.val := by
    show win0_3.index t 0 * 5000 + 1 * p.val = _; rw [e6]; omega
  have h1 : ((((cfg0.win 3).blk t).view.emb (ix2 p q)) 1).val = q.val := by
    show win0_3.index t 1 * 128 + 1 * q.val = _; rw [e7]; omega
  unfold scaledProduct
  refine Finset.sum_congr rfl fun k _ => ?_
  rw [blk_x V c t (ix2 p k) (ix2 ⟨_, (((cfg0.win 3).blk t).view.emb (ix2 p q) 0).isLt⟩ k) h0 rfl,
    blk_s V c t (ix2 p (0 : Fin 1)) (ix2 ⟨_, (((cfg0.win 3).blk t).view.emb (ix2 p q) 0).isLt⟩ (0 : Fin 1)) h0 rfl,
    blk_w V c t (ix2 k q)]
  refine congrArg (fun z => _ * (V c main_arg1 : S256x128.Idx → EReal) z) ?_
  funext a
  apply Fin.ext
  match a with
  | ⟨0, _⟩ => rfl
  | ⟨1, _⟩ => exact h1.symm

/-- An index of the result array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The ten blocks tile the result: row r is in the block of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t 0 * 5000 ≤ (i 0).val ∧ (i 0).val < win0_3.index t 0 * 5000 + 5000; rw [e6, ht]; omega
  | ⟨1, _⟩ => show win0_3.index t 1 * 128 ≤ (i 1).val ∧ (i 1).val < win0_3.index t 1 * 128 + 128; rw [e7]; omega

/-- The result array after the region. -/
theorem final (c : Dev nD) :
    (dat0 V c).arrAt 3 cfg0.N = scaledProduct (V c main_arg0) (V c main_v11) (V c main_arg1) :=
  (dat0 V c).arrAt_eq_of_cover 3 (scaledProduct (V c main_arg0) (V c main_v11) (V c main_arg1)) (fun t _ => flushed_eq V c t) cover

end Cert.KernelIdeal.Layer1

end
-- ==== Proof.Layer2.lean ====
/-
  Region 1 (the first layer's finalization fused with the second layer's dense transform), as one whole-array function.

  At grid point t, for the rows 5000·t … of the aggregated messages A: each row is scaled by its in-degree factor, the
  bias row is added, the result is clipped below at zero, scaled by the row's out-degree factor, and contracted with the
  second weight matrix into a zero accumulator; the changes of float format are the identity on the extended reals. So
  entry (p, q) of the block is
      ∑ₖ (max (A[p, k] · sᵢₙ[p, 0] + b[0, k]) 0 · sₒᵤₜ[p, 0]) · w[k, q],
  and the ten blocks tile the [50000, 64] result.
-/
import proofs.«170401_j65687229826124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

theorem hz : (![0, 0] : Fin 2 → Nat) = fun _ => 0 := funext fun a => by fin_cases a <;> rfl

/-- The hidden activation of vertex i₀, feature k: the aggregated message scaled by the in-degree factor, plus the
    bias, clipped below at zero. -/
def hiddenAct (A : S50000x128.Idx → EReal) (Sin : S50000x1.Idx → EReal) (B : S1x128.Idx → EReal) (r : Fin 50000) (k : Fin 128) : EReal :=
  max (A (ix2 r k) * Sin (ix2 r (0 : Fin 1)) + B (ix2 (0 : Fin 1) k)) (Scalar.ofBits (F := Ideal) .f32 0x00000000#32)

/-- Hidden rows scaled by the out-degree factor, then contracted with the weights. -/
def scaledProduct (A : S50000x128.Idx → EReal) (Sin Sout : S50000x1.Idx → EReal) (B : S1x128.Idx → EReal) (W : S128x64.Idx → EReal) : S50000x64.Idx → EReal :=
  fun i => ∑ k : Fin 128, (hiddenAct A Sin B ⟨(i 0).val, (i 0).isLt⟩ k * Sout (ix2 (⟨(i 0).val, (i 0).isLt⟩ : Fin 50000) (0 : Fin 1)))
    * W (ix2 k (⟨(i 1).val, (i 1).isLt⟩ : Fin 64))

/-! ## The matrix product's operand indices -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A column [5000, 1] broadcast along rows of length 128 reads, at (p, k), the column's entry p. -/
theorem bcast_col (v : S5000x1.Idx → EReal) (p : Fin 5000) (k : Fin 128) :
    broadcastTo S5000x128 v broadcasts_S5000x1_S5000x128 (ix2 p k) = v (ix2 p (0 : Fin 1)) :=
  broadcastTo_apply v broadcasts_S5000x1_S5000x128 (ix2 p k) (ix2 p (0 : Fin 1)) fun a => by
    match a with
    | ⟨0, _⟩ => show p.val = if (5000 : Nat) = 1 then 0 else p.val; rw [if_neg (by decide)]
    | ⟨1, _⟩ => show 0 = if (1 : Nat) = 1 then 0 else k.val; rw [if_pos rfl]

/-- The body's stored value at entry (p, q) of the block. -/
theorem pay_apply (x0 : Vec Ideal S5000x128 .f32) (x1 : Vec Ideal S5000x1 .f32) (x3 : Vec Ideal S1x128 .f32) (x2 : Vec Ideal S5000x1 .f32) (x4 : Vec Ideal S128x64 .f32) (p : Fin 5000) (q : Fin 64) :
    k1_pay1 (F := Ideal) x0 x1 x3 x2 x4 (ix2 p q)
      = ∑ k : Fin 128, (max (x0 (ix2 p k) * x1 (ix2 p (0 : Fin 1)) + x3 (ix2 (0 : Fin 1) k)) (Scalar.ofBits (F := Ideal) .f32 0x00000000#32) * x2 (ix2 p (0 : Fin 1))) * x4 (ix2 k q) := by
  unfold k1_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]
  show (max (shapeCast S5000x128 x0 shapeCasts_S5000x128_S5000x128 (ix2 p k) * broadcastTo S5000x128 (shapeCast S5000x1 x1 shapeCasts_S5000x1_S5000x1) broadcasts_S5000x1_S5000x128 (ix2 p k)
      + broadcastTo S5000x128 (shapeCast S1x128 x3 shapeCasts_S1x128_S1x128) broadcasts_S1x128_S5000x128 (ix2 p k)) (Scalar.ofBits (F := Ideal) .f32 0x00000000#32)
      * broadcastTo S5000x128 (shapeCast S5000x1 x2 shapeCasts_S5000x1_S5000x1) broadcasts_S5000x1_S5000x128 (ix2 p k)) * x4 (ix2 k q) = _
  rw [shapeCast_self, shapeCast_self, shapeCast_self, shapeCast_self, bcast_col, bcast_col, broadcastTo_1b_ab_apply]

/-! ## From the ten row blocks to the array -/

variable (V : (c : Dev nD) → (b : Ref sig .tc) → Buf (Elt Ideal) ((c : Thread nD τ).loc b))

/-- The printed index maps, decided over the grid: the messages, the two degree columns and the result move with the
    grid point along the rows; the bias row and the weight matrix stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The messages' block at point t is rows 5000·t … of the messages. -/
theorem blk_a (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v23 : S50000x128.Idx → EReal) k := by
  obtain ⟨e0, e1, -⟩ := idx_facts t
  unfold iblk1
  rw [View.read_apply]
  show V c main_v23 _ = V c main_v23 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The in-degree column's block at point t is rows 5000·t … of the column. -/
theorem blk_sin (c : Dev nD) (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = (V c main_v24 : S50000x1.Idx → EReal) k := by
  obtain ⟨-, -, e0, e1, -⟩ := idx_facts t
  unfold iblk1
  rw [View.read_apply]
  show V c main_v24 _ = V c main_v24 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The out-degree column's block at point t is rows 5000·t … of the column. -/
theorem blk_sout (c : Dev nD) (t : Fin cfg1.N) (x : S5000x1.Idx) (k : S50000x1.Idx)
    (hk0 : (k 0).val = 5000 * t.val + (x 0).val) (hk1 : (k 1).val = (x 1).val) :
    (iblk1 V c 2 t : Vec Ideal S5000x1 .f32) x = (V c main_v25 : S50000x1.Idx → EReal) k := by
  obtain ⟨-, -, -, -, e0, e1, -⟩ := idx_facts t
  unfold iblk1
  rw [View.read_apply]
  show V c main_v25 _ = V c main_v25 _
  congr 1
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- The bias row's block at every point is the row. -/
theorem blk_b (c : Dev nD) (t : Fin cfg1.N) (x : S1x128.Idx) :
    (iblk1 V c 3 t : Vec Ideal S1x128 .f32) x = (V c main_v26 : S1x128.Idx → EReal) x := by
  obtain ⟨-, -, -, -, -, -, e0, e1, -⟩ := idx_facts t
  unfold iblk1
  rw [View.read_apply]
  show V c main_v26 _ = V c main_v26 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The weight matrix's block at every point is the matrix. -/
theorem blk_w (c : Dev nD) (t : Fin cfg1.N) (x : S128x64.Idx) :
    (iblk1 V c 4 t : Vec Ideal S128x64 .f32) x = (V c main_arg3 : S128x64.Idx → EReal) x := by
  obtain ⟨-, -, -, -, -, -, -, -, e0, e1, -⟩ := idx_facts t
  unfold iblk1
  rw [View.read_apply]
  show V c main_arg3 _ = V c main_arg3 _
  congr 1
  funext a
  apply Fin.ext
  match a with
  | ⟨0, _⟩ => show win1_4.index t 0 * 128 + 1 * (x 0).val = (x 0).val; rw [e0]; omega
  | ⟨1, _⟩ => show win1_4.index t 1 * 64 + 1 * (x 1).val = (x 1).val; rw [e1]; omega

/-- What point t writes back is block t of `scaledProduct` of the arrays the region finds. -/
theorem flushed_eq (c : Dev nD) (t : Fin cfg1.N) :
    (dat1 V c).flushed 5 t = ((cfg1.win 5).blk t).view.read (Elt Ideal)
      (scaledProduct (V c main_v23) (V c main_v24) (V c main_v25) (V c main_v26) (V c main_arg3)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz, View.ld_unit_zero (S := S128x64) hz]
  obtain ⟨-, -, -, -, -, -, -, -, -, -, e6, e7⟩ := idx_facts t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 3 t) (iblk1 V c 2 t) (iblk1 V c 4 t) (ix2 p q)
    = scaledProduct (V c main_v23) (V c main_v24) (V c main_v25) (V c main_v26) (V c main_arg3) (((cfg1.win 5).blk t).view.emb (ix2 p q))
  rw [pay_apply (iblk1 V c 0 t) (iblk1 V c 1 t) (iblk1 V c 3 t) (iblk1 V c 2 t) (iblk1 V c 4 t) p q]
  have h0 : ((((cfg1.win 5).blk t).view.emb (ix2 p q)) 0).val = 5000 * t.val + p.val := by
    show win1_5.index t 0 * 5000 + 1 * p.val = _; rw [e6]; omega
  have h1 : ((((cfg1.win 5).blk t).view.emb (ix2 p q)) 1).val = q.val := by
    show win1_5.index t 1 * 64 + 1 * q.val = _; rw [e7]; omega
  unfold scaledProduct hiddenAct
  refine Finset.sum_congr rfl fun k _ => ?_
  rw [blk_a V c t (ix2 p k) (ix2 ⟨_, (((cfg1.win 5).blk t).view.emb (ix2 p q) 0).isLt⟩ k) h0 rfl,
    blk_sin V c t (ix2 p (0 : Fin 1)) (ix2 ⟨_, (((cfg1.win 5).blk t).view.emb (ix2 p q) 0).isLt⟩ (0 : Fin 1)) h0 rfl,
    blk_sout V c t (ix2 p (0 : Fin 1)) (ix2 ⟨_, (((cfg1.win 5).blk t).view.emb (ix2 p q) 0).isLt⟩ (0 : Fin 1)) h0 rfl,
    blk_b V c t (ix2 (0 : Fin 1) k), blk_w V c t (ix2 k q)]
  refine congrArg (fun z => _ * (V c main_arg3 : S128x64.Idx → EReal) z) ?_
  funext a
  apply Fin.ext
  match a with
  | ⟨0, _⟩ => rfl
  | ⟨1, _⟩ => exact h1.symm

/-- An index of the result array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

/-- The ten blocks tile the result: row r is in the block of point r / 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e6, e7⟩ := idx_facts t
  refine ⟨t, flush1_5 t, ?_⟩
  rw [mem_blk]
  intro a
  match a with
  | ⟨0, _⟩ => show win1_5.index t 0 * 5000 ≤ (i 0).val ∧ (i 0).val < win1_5.index t 0 * 5000 + 5000; rw [e6, ht]; omega
  | ⟨1, _⟩ => show win1_5.index t 1 * 64 ≤ (i 1).val ∧ (i 1).val < win1_5.index t 1 * 64 + 64; rw [e7]; omega

/-- The result array after the region. -/
theorem final (c : Dev nD) :
    (dat1 V c).arrAt 5 cfg1.N = scaledProduct (V c main_v23) (V c main_v24) (V c main_v25) (V c main_v26) (V c main_arg3) :=
  (dat1 V c).arrAt_eq_of_cover 5 (scaledProduct (V c main_v23) (V c main_v24) (V c main_v25) (V c main_v26) (V c main_arg3)) (fun t _ => flushed_eq V c t) cover

end Cert.KernelIdeal.Layer2

end
-- ==== Proof.Layer3.lean ====
/-
  Region 2 (the second layer's finalization fused with the linear head), as two whole-array functions.

  At grid point t, for the rows 5000·t … of the aggregated messages A: each row is scaled by its in-degree factor and the
  bias row is added: that is the block of the first result, `hidden`. The same rows are contracted with the head's
  weight matrix into a zero accumulator and the head's bias row is added: the block of the second result, `logits`. The
  changes of float format on the way are the identity on the extended reals. Both results are tiled by their ten blocks.
-/
import proofs.«170401_j65687229826124_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen

theorem hz : (![0, 0] : Fin 2 → Nat) = fun _ => 0 := funext fun a => by fin_cases a <;> rfl

/-- The hidden feature k of vertex r: the aggregated message scaled by the in-degree factor, plus the bias. -/
def hiddenAt (A : S50000x64.Idx → EReal) (Sin : S50000x1.Idx → EReal) (B : S1x64.Idx → EReal) (r : Fin 50000) (k : Fin 64) : EReal :=
  A (ix2 r k) * Sin (ix2 r (0 : Fin 1)) + B (ix2 (0 : Fin 1) k)

/-- The first result. -/
def hidden (A : S50000x64.Idx → EReal) (Sin : S50000x1.Idx → EReal) (B : S1x64.Idx → EReal) : S50000x64.Idx → EReal :=
  fun i => hiddenAt A Sin B ⟨(i 0).val, (i 0).isLt⟩ ⟨(i 1).val, (i 1).isLt⟩

/-- The second result: the hidden rows contracted with the head's weights, plus the head's bias. -/
def logits (A : S50000x64.Idx → EReal) (Sin : S50000x1.Idx → EReal) (B : S1x64.Idx → EReal) (Wf : S64x2.Idx → EReal) (Bf : S1x2.Idx → EReal) : S50000x2.Idx → EReal :=
  fun i => (∑ k : Fin 64, hiddenAt A Sin B ⟨(i 0).val, (i 0).isLt⟩ k * Wf (ix2 k (⟨(i 1).val, (i 1).isLt⟩ : Fin 2)))
    + Bf (ix2 (0 : Fin 1) (⟨(i 1).val, (i 1).isLt⟩ : Fin 2))

/-! ## The matrix product's operand indices -/

theorem lhs_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem rhs_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem rhs_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- A column [5000, 1] broadcast along rows of length 64 reads, at (p, k), the column's entry p. -/
theorem bcast_col (v : S5000x1.Idx → EReal) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1)) fun a => by
    match a with
    | ⟨0, _⟩ => show p.val = if (5000 : Nat) = 1 then 0 else p.val; rw [if_neg (by decide)]
    | ⟨1, _⟩ => show 0 = if (1 : Nat) = 1 then 0 else k.val; rw [if_pos rfl]

/-- The first store's value at entry (p, k) of the block. -/
theorem pay1_apply (x0 : Vec Ideal S5000x64 .f32) (x1 : Vec Ideal S5000x1 .f32) (x2 : Vec Ideal S1x64 .f32) (p : Fin 5000) (k : Fin 64) :
    k2_pay1 (F := Ideal) x0 x1 x2 (ix2 p k) = x0 (ix2 p k) * x1 (ix2 p (0 : Fin 1)) + x2 (ix2 (0 : Fin 1) k) := by
  unfold k2_pay1
  show shapeCast S5000x64 x0 shapeCasts_S5000x64_S5000x64 (ix2 p k) * broadcastTo S5000x64 (shapeCast S5000x1 x1 shapeCasts_S5000x1_S5000x1) broadcasts_S5000x1_S5000x64 (ix2 p k)
      + broadcastTo S5000x64 (shapeCast S1x64 x2 shapeCasts_S1x64_S1x64) broadcasts_S1x64_S5000x64 (ix2 p k) = _
  rw [shapeCast_self, shapeCast_self, shapeCast_self, bcast_col, broadcastTo_1b_ab_apply]

/-- The second store's value at entry (p, q) of the block. -/
theorem pay2_apply (x0 : Vec Ideal S5000x64 .f32) (x1 : Vec Ideal S5000x1 .f32) (x2 : Vec Ideal S1x64 .f32) (x3 : Vec Ideal S64x2 .f32) (x4 : Vec Ideal S1x2 .f32) (p : Fin 5000) (q : Fin 2) :
    k2_pay2 (F := Ideal) x0 x1 x2 x3 x4 (ix2 p q)
      = (∑ k : Fin 64, (x0 (ix2 p k) * x1 (ix2 p (0 : Fin 1)) + x2 (ix2 (0 : Fin 1) k)) * x3 (ix2 k q)) + x4 (ix2 (0 : Fin 1) q) := by
  unfold k2_pay2
  have hb : broadcastTo S5000x2 (shapeCast S1x2 x4 shapeCasts_S1x2_S1x2) broadcasts_S1x2_S5000x2 (ix2 p q) = x4 (ix2 (0 : Fin 1) q) := by
    rw [shapeCast_self, broadcastTo_1b_ab_apply]
  refine (addf_apply _ _ (ix2 p q)).trans ?_
  refine congrArg₂ (· + ·) ?_ hb
  refine (Ideal.matmul_constant_zero_apply dot_S5000x64_S64x2_S5000x2_1_0_0_1_n_n none _ _ (ix2 p q)).trans ?_
  rw [← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 p q) ((contrEquiv1 dot_S5000x64_S64x2_S5000x2_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x2_S5000x2_1_0_0_1_n_n.rhsIdx (ix2 p q) ((contrEquiv1 dot_S5000x64_S64x2_S5000x2_1_0_0_1_n_n 64 rfl rfl).symm k) = ix2 k q := funext fun a => Fin.ext (by
    match a with
    | ⟨0, _⟩ => exact (rhs_0 _ _).trans hk
    | ⟨1, _⟩ => exact rhs_1 _ _)
  rw [el, er]
  show k2_pay1 (F := Ideal) x0 x1 x2 (ix2 p k) * x3 (ix2 k q) = _
  rw [pay1_apply]

/-! ## From the ten row blocks to the arrays -/

variable (V : (c : Dev nD) → (b : Ref sig .tc) → Buf (Elt Ideal) ((c : Thread nD τ).loc b))

/-- The printed index maps, decided over the grid: the messages, the degree column and both results move with the
    grid point along the rows; the bias rows and the weight matrix stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The messages' block at point t is rows 5000·t … of the messages. -/
theorem blk_a (c : Dev nD) (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c main_v38 : S50000x64.Idx → EReal) k := by
  obtain ⟨e0, e1, -⟩ := idx_facts t
  unfold iblk2
  rw [View.read_apply]
  show V c main_v38 _ = V c main_v38 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The in-degree column's block at point t is rows 5000·t … of the column. -/
theorem blk_sin (c : Dev nD) (t : Fin cfg2.N) (x : S5000x1.Idx) (k : S50000x1.Idx)
    (hk0 : (k 0).val = 5000 * t.val + (x 0).val) (hk1 : (k 1).val = (x 1).val) :
    (iblk2 V c 1 t : Vec Ideal S5000x1 .f32) x = (V c main_v39 : S50000x1.Idx → EReal) k := by
  obtain ⟨-, -, e0, e1, -⟩ := idx_facts t
  unfold iblk2
  rw [View.read_apply]
  show V c main_v39 _ = V c main_v39 _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The bias row's block at every point is the row. -/
theorem blk_b (c : Dev nD) (t : Fin cfg2.N) (x : S1x64.Idx) :
    (iblk2 V c 2 t : Vec Ideal S1x64 .f32) x = (V c main_v40 : S1x64.Idx → EReal) x := by
  obtain ⟨-, -, -, -, e0, e1, -⟩ := idx_facts t
  unfold iblk2
  rw [View.read_apply]
  show V c main_v40 _ = V c main_v40 _
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- The head's weight matrix's block at every point is the matrix. -/
theorem blk_w (c : Dev nD) (t : Fin cfg2.N) (x : S64x2.Idx) :
    (iblk2 V c 3 t : Vec Ideal S64x2 .f32) x = (V c main_arg5 : S64x2.Idx → EReal) x := by
  obtain ⟨-, -, -, -, -, -, e0, e1, -⟩ := idx_facts t
  unfold iblk2
  rw [View.read_apply]
  show V c main_arg5 _ = V c main_arg5 _
  congr 1
  funext a
  apply Fin.ext
  match a with
  | ⟨0, _⟩ => show win2_3.index t 0 * 64 + 1 * (x 0).val = (x 0).val; rw [e0]; omega
  | ⟨1, _⟩ => show win2_3.index t 1 * 2 + 1 * (x 1).val = (x 1).val; rw [e1]; omega

/-- The head's bias row's block at every point is the row. -/
theorem blk_bf (c : Dev nD) (t : Fin cfg2.N) (x : S1x2.Idx) :
    (iblk2 V c 4 t : Vec Ideal S1x2 .f32) x = (V c main_v41 : S1x2.Idx → EReal) x := by
  obtain ⟨-, -, -, -, -, -, -, -, e0, e1, -⟩ := idx_facts t
  unfold iblk2
  rw [View.read_apply]
  show V c main_v41 _ = V c main_v41 _
  congr 1
  funext a
  apply Fin.ext
  match a with
  | ⟨0, _⟩ => show win2_4.index t 0 * 1 + 1 * (x 0).val = (x 0).val; rw [e0]; omega
  | ⟨1, _⟩ => show win2_4.index t 1 * 2 + 1 * (x 1).val = (x 1).val; rw [e1]; omega

/-- What point t writes back to the first result is block t of `hidden` of the arrays the region finds. -/
theorem flushed5_eq (c : Dev nD) (t : Fin cfg2.N) :
    (dat2 V c).flushed 5 t = ((cfg2.win 5).blk t).view.read (Elt Ideal) (hidden (V c main_v38) (V c main_v39) (V c main_v40)) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S1x64) hz]
  obtain ⟨-, -, -, -, -, -, -, -, -, -, e6, e7, -⟩ := idx_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = hidden (V c main_v38) (V c main_v39) (V c main_v40) (((cfg2.win 5).blk t).view.emb (ix2 p q))
  rw [pay1_apply (iblk2 V c 0 t) (iblk2 V c 1 t) (iblk2 V c 2 t) p q]
  have h0 : ((((cfg2.win 5).blk t).view.emb (ix2 p q)) 0).val = 5000 * t.val + p.val := by
    show win2_5.index t 0 * 5000 + 1 * p.val = _; rw [e6]; omega
  have h1 : ((((cfg2.win 5).blk t).view.emb (ix2 p q)) 1).val = q.val := by
    show win2_5.index t 1 * 64 + 1 * q.val = _; rw [e7]; omega
  unfold hidden hiddenAt
  rw [blk_a V c t (ix2 p q) (ix2 ⟨_, (((cfg2.win 5).blk t).view.emb (ix2 p q) 0).isLt⟩ ⟨_, (((cfg2.win 5).blk t).view.emb (ix2 p q) 1).isLt⟩) h0 h1,
    blk_sin V c t (ix2 p (0 : Fin 1)) (ix2 ⟨_, (((cfg2.win 5).blk t).view.emb (ix2 p q) 0).isLt⟩ (0 : Fin 1)) h0 rfl,
    blk_b V c t (ix2 (0 : Fin 1) q)]
  refine congrArg (fun z => _ + (V c main_v40 : S1x64.Idx → EReal) z) ?_
  funext a
  apply Fin.ext
  match a with
  | ⟨0, _⟩ => rfl
  | ⟨1, _⟩ => exact h1.symm

/-- What point t writes back to the second result is block t of `logits` of the arrays the region finds. -/
theorem flushed6_eq (c : Dev nD) (t : Fin cfg2.N) :
    (dat2 V c).flushed 6 t = ((cfg2.win 6).blk t).view.read (Elt Ideal)
      (logits (V c main_v38) (V c main_v39) (V c main_v40) (V c main_arg5) (V c main_v41)) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S1x64) hz, View.ld_unit_zero (S := S64x2) hz, View.ld_unit_zero (S := S1x2) hz]
  obtain ⟨-, -, -, -, -, -, -, -, -, -, -, -, e6, e7⟩ := idx_facts t
  funext j
  obtain ⟨p, q, rfl⟩ : ∃ (p : Fin 5000) (q : Fin 2), j = ix2 p q := ⟨j 0, j 1, eq_ix2 j⟩
  show k2_pay2 (F := Ideal) (iblk2 V c 0 t) (iblk2 V c 1 t) (iblk2 V c 2 t) (iblk2 V c 3 t) (iblk2 V c 4 t) (ix2 p q)
    = logits (V c main_v38) (V c main_v39) (V c main_v40) (V c main_arg5) (V c main_v41) (((cfg2.win 6).blk t).view.emb (ix2 p q))
  rw [pay2_apply (iblk2 V c 0 t) (iblk2 V c 1 t) (iblk2 V c 2 t) (iblk2 V c 3 t) (iblk2 V c 4 t) p q]
  have h0 : ((((cfg2.win 6).blk t).view.emb (ix2 p q)) 0).val = 5000 * t.val + p.val := by
    show win2_6.index t 0 * 5000 + 1 * p.val = _; rw [e6]; omega
  have h1 : ((((cfg2.win 6).blk t).view.emb (ix2 p q)) 1).val = q.val := by
    show win2_6.index t 1 * 2 + 1 * q.val = _; rw [e7]; omega
  have hq : (ix2 (0 : Fin 1) q : S1x2.Idx) = ix2 (0 : Fin 1) (⟨_, (((cfg2.win 6).blk t).view.emb (ix2 p q) 1).isLt⟩ : Fin 2) := by
    funext a
    apply Fin.ext
    match a with
    | ⟨0, _⟩ => rfl
    | ⟨1, _⟩ => exact h1.symm
  unfold logits hiddenAt
  rw [blk_bf V c t (ix2 (0 : Fin 1) q), hq]
  refine congrArg (· + _) (Finset.sum_congr rfl fun k _ => ?_)
  rw [blk_a V c t (ix2 p k) (ix2 ⟨_, (((cfg2.win 6).blk t).view.emb (ix2 p q) 0).isLt⟩ k) h0 rfl,
    blk_sin V c t (ix2 p (0 : Fin 1)) (ix2 ⟨_, (((cfg2.win 6).blk t).view.emb (ix2 p q) 0).isLt⟩ (0 : Fin 1)) h0 rfl,
    blk_b V c t (ix2 (0 : Fin 1) k), blk_w V c t (ix2 k q)]
  refine congrArg (fun z => _ * (V c main_arg5 : S64x2.Idx → EReal) z) ?_
  funext a
  apply Fin.ext
  match a with
  | ⟨0, _⟩ => rfl
  | ⟨1, _⟩ => exact h1.symm

/-- An index of the array is in point t's block iff each coordinate is in the block's range on its axis. -/
theorem mem_blk5 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v42_0).slice (win2_5.rect t)).set ↔ _
  rw [View.set_slice_whole, Rect.mem_set_unit]
  exact Iff.rfl

/-- The ten blocks tile the array: row r is in the block of point r / 5000. -/
theorem cover5 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e6, e7, -⟩ := idx_facts t
  refine ⟨t, flush2_5 t, ?_⟩
  rw [mem_blk5]
  intro a
  match a with
  | ⟨0, _⟩ => show win2_5.index t 0 * 5000 ≤ (i 0).val ∧ (i 0).val < win2_5.index t 0 * 5000 + 5000; rw [e6, ht]; omega
  | ⟨1, _⟩ => show win2_5.index t 1 * 64 ≤ (i 1).val ∧ (i 1).val < win2_5.index t 1 * 64 + 64; rw [e7]; omega

/-- An index of the array is in point t's block iff each coordinate is in the block's range on its axis. -/
theorem mem_blk6 (t : Fin cfg2.N) (i : S50000x2.Idx) :
    i ∈ ((cfg2.win 6).blk t).view.set ↔ ∀ a : Fin 2, win2_6.index t a * S5000x2.size a ≤ (i a).val ∧ (i a).val < win2_6.index t a * S5000x2.size a + S5000x2.size a := by
  show i ∈ ((View.whole main_v42_1).slice (win2_6.rect t)).set ↔ _
  rw [View.set_slice_whole, Rect.mem_set_unit]
  exact Iff.rfl

/-- The ten blocks tile the array: row r is in the block of point r / 5000. -/
theorem cover6 (i : S50000x2.Idx) : ∃ t : Fin cfg2.N, (cfg2.win 6).flush t = true ∧ i ∈ ((cfg2.win 6).blk t).view.set := by
  have hi0 : (i 0).val < 50000 := (i 0).isLt
  have hi1 : (i 1).val < 2 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e6, e7⟩ := idx_facts t
  refine ⟨t, flush2_6 t, ?_⟩
  rw [mem_blk6]
  intro a
  match a with
  | ⟨0, _⟩ => show win2_6.index t 0 * 5000 ≤ (i 0).val ∧ (i 0).val < win2_6.index t 0 * 5000 + 5000; rw [e6, ht]; omega
  | ⟨1, _⟩ => show win2_6.index t 1 * 2 ≤ (i 1).val ∧ (i 1).val < win2_6.index t 1 * 2 + 2; rw [e7]; omega

/-- The first result array after the region. -/
theorem final5 (c : Dev nD) :
    (dat2 V c).arrAt 5 cfg2.N = hidden (V c main_v38) (V c main_v39) (V c main_v40) :=
  (dat2 V c).arrAt_eq_of_cover 5 (hidden (V c main_v38) (V c main_v39) (V c main_v40)) (fun t _ => flushed5_eq V c t) cover5

/-- The second result array after the region. -/
theorem final6 (c : Dev nD) :
    (dat2 V c).arrAt 6 cfg2.N = logits (V c main_v38) (V c main_v39) (V c main_v40) (V c main_arg5) (V c main_v41) :=
  (dat2 V c).arrAt_eq_of_cover 6 (logits (V c main_v38) (V c main_v39) (V c main_v40) (V c main_arg5) (V c main_v41)) (fun t _ => flushed6_eq V c t) cover6

end Cert.KernelIdeal.Layer3

end
-- ==== Proof.Chain.lean ====
/-
  The idealized kernel program's two results as ONE expression of the argument arrays.

  The program's buffers at each segment boundary are a fold from the launch memory (the generated `W0 … W10`): a host
  stretch applies its operations, a region leaves its result arrays at the whole-array functions of Layer1 – Layer3. This
  module walks the fold: the degree factors (`degFactor`: the reciprocal square root of the clipped count of edges at a
  vertex), the edge aggregation between layers (`aggregate128`, `aggregate64`: gather the rows at the edges' sources,
  add them up at the edges' destinations), the reshapes of the small operands, and the three regions in order.
-/
import proofs.«170401_j65687229826124_2_alg».proof.Proof.Gen.KernelIdeal.Frame
import proofs.«170401_j65687229826124_2_alg».proof.Proof.Layer1
import proofs.«170401_j65687229826124_2_alg».proof.Proof.Layer2
import proofs.«170401_j65687229826124_2_alg».proof.Proof.Layer3
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-! ## The host stretches' values, named -/

/-- The degree factor of every vertex: count the edges whose endpoint list `idx` names the vertex (a scatter-add of ones
    into zeros), clip the count below at one, take the reciprocal square root. -/
def degFactor (idx : (⟨S800000, .i32⟩ : BufTy).Contents (Elt Ideal)) : (⟨S50000, .f32⟩ : BufTy).Contents (Elt Ideal) :=
  Host.rsqrt (F := Ideal) (maximumf (broadcastInDim S50000 ![] bcast_S_S50000 (id (constant (F := Ideal) S_ .f32 0x3F800000#32)))
    (Host.scatterAdd (F := Ideal) scatter_S50000_S800000x1_S800000_n_0_0_1 (broadcastInDim S50000 ![] bcast_S_S50000 (constant (F := Ideal) S_ .f32 0x00000000#32))
      (broadcastInDim S800000x1 ![0] bcast_S800000_S800000x1_0 idx) (broadcastInDim S800000 ![] bcast_S_S800000 (constant (F := Ideal) S_ .f32 0x3F800000#32))))

/-- A per-vertex vector laid out as a column. -/
def colOf (v : (⟨S50000, .f32⟩ : BufTy).Contents (Elt Ideal)) : (⟨S50000x1, .f32⟩ : BufTy).Contents (Elt Ideal) :=
  shapeCast S50000x1 v shapeCasts_S50000_S50000x1
/-- A bias vector laid out as a row. -/
def row128 (v : (⟨S128, .f32⟩ : BufTy).Contents (Elt Ideal)) : (⟨S1x128, .f32⟩ : BufTy).Contents (Elt Ideal) :=
  shapeCast S1x128 v shapeCasts_S128_S1x128
def row64 (v : (⟨S64, .f32⟩ : BufTy).Contents (Elt Ideal)) : (⟨S1x64, .f32⟩ : BufTy).Contents (Elt Ideal) :=
  shapeCast S1x64 v shapeCasts_S64_S1x64
def row2 (v : (⟨S2, .f32⟩ : BufTy).Contents (Elt Ideal)) : (⟨S1x2, .f32⟩ : BufTy).Contents (Elt Ideal) :=
  shapeCast S1x2 v shapeCasts_S2_S1x2

/-- The edges' source indices as gather indices: a negative index counts from the end. -/
def wrapIdx (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Message passing over 128 features: the rows of `H` at the edges' sources, added up at the edges' destinations. -/
def aggregate128 (H : (⟨S50000x128, .bf16⟩ : BufTy).Contents (Elt Ideal)) (src dst : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32 (Host.gather gather_S50000x128_S800000x1_S800000x128_1_0_n_n_0_1_1128 H (wrapIdx src)) bitsLt_bf16_f32)

/-- Message passing over 64 features. -/
def aggregate64 (H : (⟨S50000x64, .bf16⟩ : BufTy).Contents (Elt Ideal)) (src dst : (⟨S800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (extf .f32 (Host.gather gather_S50000x64_S800000x1_S800000x64_1_0_n_n_0_1_164 H (wrapIdx src)) bitsLt_bf16_f32)

/-! ## The arguments at every boundary: no operation and no region writes one -/

theorem w5_arg0 (c : Dev nD) : W5 m ρ c (Proc.devRef .tc main_arg0) = m ((c.tc : Thread nD τ).loc main_arg0) := by
  dsimp only [W5, W4, W3, W2, W1]; after_results <;> rfl

theorem w5_arg1 (c : Dev nD) : W5 m ρ c (Proc.devRef .tc main_arg1) = m ((c.tc : Thread nD τ).loc main_arg1) := by
  dsimp only [W5, W4, W3, W2, W1]; after_results <;> rfl

theorem w5_arg2 (c : Dev nD) : W5 m ρ c (Proc.devRef .tc main_arg2) = m ((c.tc : Thread nD τ).loc main_arg2) := by
  dsimp only [W5, W4, W3, W2, W1]; after_results <;> rfl
theorem w6_arg2 (c : Dev nD) : W6 m ρ c (Proc.devRef .tc main_arg2) = m ((c.tc : Thread nD τ).loc main_arg2) :=
  (W6_of_ne m ρ c main_arg2 (by decide)).trans (w5_arg2 m ρ c)

theorem w5_arg3 (c : Dev nD) : W5 m ρ c (Proc.devRef .tc main_arg3) = m ((c.tc : Thread nD τ).loc main_arg3) := by
  dsimp only [W5, W4, W3, W2, W1]; after_results <;> rfl
theorem w6_arg3 (c : Dev nD) : W6 m ρ c (Proc.devRef .tc main_arg3) = m ((c.tc : Thread nD τ).loc main_arg3) :=
  (W6_of_ne m ρ c main_arg3 (by decide)).trans (w5_arg3 m ρ c)
theorem w7_arg3 (c : Dev nD) : W7 m ρ c (Proc.devRef .tc main_arg3) = m ((c.tc : Thread nD τ).loc main_arg3) := by
  dsimp only [W7]; after_results; exact w6_arg3 m ρ c

theorem w5_arg4 (c : Dev nD) : W5 m ρ c (Proc.devRef .tc main_arg4) = m ((c.tc : Thread nD τ).loc main_arg4) := by
  dsimp only [W5, W4, W3, W2, W1]; after_results <;> rfl
theorem w6_arg4 (c : Dev nD) : W6 m ρ c (Proc.devRef .tc main_arg4) = m ((c.tc : Thread nD τ).loc main_arg4) :=
  (W6_of_ne m ρ c main_arg4 (by decide)).trans (w5_arg4 m ρ c)
theorem w7_arg4 (c : Dev nD) : W7 m ρ c (Proc.devRef .tc main_arg4) = m ((c.tc : Thread nD τ).loc main_arg4) := by
  dsimp only [W7]; after_results; exact w6_arg4 m ρ c
theorem w8_arg4 (c : Dev nD) : W8 m ρ c (Proc.devRef .tc main_arg4) = m ((c.tc : Thread nD τ).loc main_arg4) :=
  (W8_of_ne m ρ c main_arg4 (by decide)).trans (w7_arg4 m ρ c)

theorem w5_arg5 (c : Dev nD) : W5 m ρ c (Proc.devRef .tc main_arg5) = m ((c.tc : Thread nD τ).loc main_arg5) := by
  dsimp only [W5, W4, W3, W2, W1]; after_results <;> rfl
theorem w6_arg5 (c : Dev nD) : W6 m ρ c (Proc.devRef .tc main_arg5) = m ((c.tc : Thread nD τ).loc main_arg5) :=
  (W6_of_ne m ρ c main_arg5 (by decide)).trans (w5_arg5 m ρ c)
theorem w7_arg5 (c : Dev nD) : W7 m ρ c (Proc.devRef .tc main_arg5) = m ((c.tc : Thread nD τ).loc main_arg5) := by
  dsimp only [W7]; after_results; exact w6_arg5 m ρ c
theorem w8_arg5 (c : Dev nD) : W8 m ρ c (Proc.devRef .tc main_arg5) = m ((c.tc : Thread nD τ).loc main_arg5) :=
  (W8_of_ne m ρ c main_arg5 (by decide)).trans (w7_arg5 m ρ c)
theorem w9_arg5 (c : Dev nD) : W9 m ρ c (Proc.devRef .tc main_arg5) = m ((c.tc : Thread nD τ).loc main_arg5) := by
  dsimp only [W9]; after_results; exact w8_arg5 m ρ c

theorem w5_arg6 (c : Dev nD) : W5 m ρ c (Proc.devRef .tc main_arg6) = m ((c.tc : Thread nD τ).loc main_arg6) := by
  dsimp only [W5, W4, W3, W2, W1]; after_results <;> rfl
theorem w6_arg6 (c : Dev nD) : W6 m ρ c (Proc.devRef .tc main_arg6) = m ((c.tc : Thread nD τ).loc main_arg6) :=
  (W6_of_ne m ρ c main_arg6 (by decide)).trans (w5_arg6 m ρ c)
theorem w7_arg6 (c : Dev nD) : W7 m ρ c (Proc.devRef .tc main_arg6) = m ((c.tc : Thread nD τ).loc main_arg6) := by
  dsimp only [W7]; after_results; exact w6_arg6 m ρ c
theorem w8_arg6 (c : Dev nD) : W8 m ρ c (Proc.devRef .tc main_arg6) = m ((c.tc : Thread nD τ).loc main_arg6) :=
  (W8_of_ne m ρ c main_arg6 (by decide)).trans (w7_arg6 m ρ c)

theorem w5_arg7 (c : Dev nD) : W5 m ρ c (Proc.devRef .tc main_arg7) = m ((c.tc : Thread nD τ).loc main_arg7) := by
  dsimp only [W5, W4, W3, W2, W1]; after_results <;> rfl
theorem w6_arg7 (c : Dev nD) : W6 m ρ c (Proc.devRef .tc main_arg7) = m ((c.tc : Thread nD τ).loc main_arg7) :=
  (W6_of_ne m ρ c main_arg7 (by decide)).trans (w5_arg7 m ρ c)
theorem w7_arg7 (c : Dev nD) : W7 m ρ c (Proc.devRef .tc main_arg7) = m ((c.tc : Thread nD τ).loc main_arg7) := by
  dsimp only [W7]; after_results; exact w6_arg7 m ρ c
theorem w8_arg7 (c : Dev nD) : W8 m ρ c (Proc.devRef .tc main_arg7) = m ((c.tc : Thread nD τ).loc main_arg7) :=
  (W8_of_ne m ρ c main_arg7 (by decide)).trans (w7_arg7 m ρ c)

theorem w5_arg8 (c : Dev nD) : W5 m ρ c (Proc.devRef .tc main_arg8) = m ((c.tc : Thread nD τ).loc main_arg8) := by
  dsimp only [W5, W4, W3, W2, W1]; after_results <;> rfl
theorem w6_arg8 (c : Dev nD) : W6 m ρ c (Proc.devRef .tc main_arg8) = m ((c.tc : Thread nD τ).loc main_arg8) :=
  (W6_of_ne m ρ c main_arg8 (by decide)).trans (w5_arg8 m ρ c)
theorem w7_arg8 (c : Dev nD) : W7 m ρ c (Proc.devRef .tc main_arg8) = m ((c.tc : Thread nD τ).loc main_arg8) := by
  dsimp only [W7]; after_results; exact w6_arg8 m ρ c
theorem w8_arg8 (c : Dev nD) : W8 m ρ c (Proc.devRef .tc main_arg8) = m ((c.tc : Thread nD τ).loc main_arg8) :=
  (W8_of_ne m ρ c main_arg8 (by decide)).trans (w7_arg8 m ρ c)

/-! ## A called function's values pass through typed references: the transports are identities -/

section Casts
variable (v0 : (⟨S_, .f32⟩ : BufTy).Contents (Elt Ideal)) (v1 : (⟨S50000, .f32⟩ : BufTy).Contents (Elt Ideal))
theorem c_v4 : (TRef.of main_v4 : TRef sig ⟨S50000, .f32⟩).toBuf v1 = v1 := rfl
theorem c_v3 (w : main_v3.ty.Contents (Elt Ideal)) : (TRef.of main_v3 : TRef sig ⟨S50000, .f32⟩).ofBuf w = w := rfl
theorem c_cst1 (w : main_cst_1.ty.Contents (Elt Ideal)) : (TRef.of main_cst_1 : TRef sig ⟨S_, .f32⟩).ofBuf w = w := rfl
theorem c_c0v0 : (TRef.of main_call0_v0 : TRef sig ⟨S_, .f32⟩).ofBuf ((TRef.of main_call0_v0 : TRef sig ⟨S_, .f32⟩).toBuf v0) = v0 := rfl
theorem c_c0v1 : (TRef.of main_call0_v1 : TRef sig ⟨S50000, .f32⟩).ofBuf ((TRef.of main_call0_v1 : TRef sig ⟨S50000, .f32⟩).toBuf v1) = v1 := rfl
theorem c_v8 : (TRef.of main_v8 : TRef sig ⟨S50000, .f32⟩).toBuf v1 = v1 := rfl
theorem c_v7 (w : main_v7.ty.Contents (Elt Ideal)) : (TRef.of main_v7 : TRef sig ⟨S50000, .f32⟩).ofBuf w = w := rfl
theorem c_cst3 (w : main_cst_3.ty.Contents (Elt Ideal)) : (TRef.of main_cst_3 : TRef sig ⟨S_, .f32⟩).ofBuf w = w := rfl
theorem c_c1v0 : (TRef.of main_call1_v0 : TRef sig ⟨S_, .f32⟩).ofBuf ((TRef.of main_call1_v0 : TRef sig ⟨S_, .f32⟩).toBuf v0) = v0 := rfl
theorem c_c1v1 : (TRef.of main_call1_v1 : TRef sig ⟨S50000, .f32⟩).ofBuf ((TRef.of main_call1_v1 : TRef sig ⟨S50000, .f32⟩).toBuf v1) = v1 := rfl
end Casts

/-! ## The degree factors -/

theorem w5_v9 (c : Dev nD) : W5 m ρ c (Proc.devRef .tc main_v9) = degFactor (m ((c.tc : Thread nD τ).loc main_arg7)) := by
  dsimp only [W5, W4, W3, W2, W1]
  after_results
  rw [c_v4, c_c0v1, c_c0v0, c_cst1, c_v3, show W0 m ρ c (Proc.devRef .tc main_arg7) = m ((c.tc : Thread nD τ).loc main_arg7) from rfl]
  unfold degFactor
  rfl

theorem w5_v10 (c : Dev nD) : W5 m ρ c (Proc.devRef .tc main_v10) = degFactor (m ((c.tc : Thread nD τ).loc main_arg8)) := by
  dsimp only [W5, W4, W3, W2, W1]
  after_results
  rw [c_v8, c_c1v1, c_c1v0, c_cst3, c_v7, show W0 m ρ c (Proc.devRef .tc main_arg8) = m ((c.tc : Thread nD τ).loc main_arg8) from rfl]
  unfold degFactor
  rfl

theorem w6_v9 (c : Dev nD) : W6 m ρ c (Proc.devRef .tc main_v9) = degFactor (m ((c.tc : Thread nD τ).loc main_arg7)) :=
  (W6_of_ne m ρ c main_v9 (by decide)).trans (w5_v9 m ρ c)
theorem w6_v10 (c : Dev nD) : W6 m ρ c (Proc.devRef .tc main_v10) = degFactor (m ((c.tc : Thread nD τ).loc main_arg8)) :=
  (W6_of_ne m ρ c main_v10 (by decide)).trans (w5_v10 m ρ c)
theorem w7_v10 (c : Dev nD) : W7 m ρ c (Proc.devRef .tc main_v10) = degFactor (m ((c.tc : Thread nD τ).loc main_arg8)) := by
  dsimp only [W7]; after_results; exact w6_v10 m ρ c
theorem w8_v10 (c : Dev nD) : W8 m ρ c (Proc.devRef .tc main_v10) = degFactor (m ((c.tc : Thread nD τ).loc main_arg8)) :=
  (W8_of_ne m ρ c main_v10 (by decide)).trans (w7_v10 m ρ c)

/-! ## A reshape of a small operand is the cast of its contents -/

section Reshapes
variable (v : (⟨S50000, .f32⟩ : BufTy).Contents (Elt Ideal))
theorem r_v11 (h : main_v9.ty.elt = main_v11.ty.elt) : (fun i => h ▸ shapeCast main_v11.ty.shape v shapeCasts_S50000_S50000x1 i) = colOf v := rfl
theorem r_v24 (h : main_v10.ty.elt = main_v24.ty.elt) : (fun i => h ▸ shapeCast main_v24.ty.shape v shapeCasts_S50000_S50000x1 i) = colOf v := rfl
theorem r_v25 (h : main_v9.ty.elt = main_v25.ty.elt) : (fun i => h ▸ shapeCast main_v25.ty.shape v shapeCasts_S50000_S50000x1 i) = colOf v := rfl
theorem r_v39 (h : main_v10.ty.elt = main_v39.ty.elt) : (fun i => h ▸ shapeCast main_v39.ty.shape v shapeCasts_S50000_S50000x1 i) = colOf v := rfl
theorem r_v26 (b : (⟨S128, .f32⟩ : BufTy).Contents (Elt Ideal)) (h : main_arg2.ty.elt = main_v26.ty.elt) :
    (fun i => h ▸ shapeCast main_v26.ty.shape b shapeCasts_S128_S1x128 i) = row128 b := rfl
theorem r_v40 (b : (⟨S64, .f32⟩ : BufTy).Contents (Elt Ideal)) (h : main_arg4.ty.elt = main_v40.ty.elt) :
    (fun i => h ▸ shapeCast main_v40.ty.shape b shapeCasts_S64_S1x64 i) = row64 b := rfl
theorem r_v41 (b : (⟨S2, .f32⟩ : BufTy).Contents (Elt Ideal)) (h : main_arg6.ty.elt = main_v41.ty.elt) :
    (fun i => h ▸ shapeCast main_v41.ty.shape b shapeCasts_S2_S1x2 i) = row2 b := rfl
end Reshapes

/-! ## Region 0: the first layer's transform -/

theorem v5_arg0 (c : Dev nD) : V5 m ρ c main_arg0 = m ((c.tc : Thread nD τ).loc main_arg0) := w5_arg0 m ρ c
theorem v5_arg1 (c : Dev nD) : V5 m ρ c main_arg1 = m ((c.tc : Thread nD τ).loc main_arg1) := w5_arg1 m ρ c
theorem v5_v11 (c : Dev nD) : V5 m ρ c main_v11 = colOf (degFactor (m ((c.tc : Thread nD τ).loc main_arg7))) := by
  show W5 m ρ c (Proc.devRef .tc main_v11) = _
  dsimp only [W5, W4, W3, W2, W1]
  after_results
  rw [c_v4, c_c0v1, c_c0v0, c_cst1, c_v3, show W0 m ρ c (Proc.devRef .tc main_arg7) = m ((c.tc : Thread nD τ).loc main_arg7) from rfl]
  unfold degFactor
  exact r_v11 _ rfl

/-- The first layer's transformed features, one expression of the arguments. -/
def H1 (x0 : (⟨S50000x256, .f32⟩ : BufTy).Contents (Elt Ideal)) (x1 : (⟨S256x128, .f32⟩ : BufTy).Contents (Elt Ideal))
    (x7 : (⟨S800000, .i32⟩ : BufTy).Contents (Elt Ideal)) : (⟨S50000x128, .bf16⟩ : BufTy).Contents (Elt Ideal) :=
  Layer1.scaledProduct x0 (colOf (degFactor x7)) x1

theorem w6_v12 (c : Dev nD) : W6 m ρ c (Proc.devRef .tc main_v12)
    = H1 (m ((c.tc : Thread nD τ).loc main_arg0)) (m ((c.tc : Thread nD τ).loc main_arg1)) (m ((c.tc : Thread nD τ).loc main_arg7)) := by
  refine (W6_arr m ρ c 3).trans ((Layer1.final (V5 m ρ) c).trans ?_)
  rw [v5_arg0, v5_v11, v5_arg1]
  rfl

/-! ## Region 1: the first layer finalized, the second layer's transform -/

/-- The first layer's aggregated messages. -/
def A1 (x0 : (⟨S50000x256, .f32⟩ : BufTy).Contents (Elt Ideal)) (x1 : (⟨S256x128, .f32⟩ : BufTy).Contents (Elt Ideal))
    (x7 x8 : (⟨S800000, .i32⟩ : BufTy).Contents (Elt Ideal)) : (⟨S50000x128, .f32⟩ : BufTy).Contents (Elt Ideal) :=
  aggregate128 (H1 x0 x1 x7) x7 x8

theorem v7_v23 (c : Dev nD) : V7 m ρ c main_v23
    = A1 (m ((c.tc : Thread nD τ).loc main_arg0)) (m ((c.tc : Thread nD τ).loc main_arg1)) (m ((c.tc : Thread nD τ).loc main_arg7)) (m ((c.tc : Thread nD τ).loc main_arg8)) := by
  show W7 m ρ c (Proc.devRef .tc main_v23) = _
  dsimp only [W7]
  after_results
  rw [w6_arg7, w6_arg8, w6_v12]
  unfold A1 aggregate128 wrapIdx
  rfl
theorem v7_v24 (c : Dev nD) : V7 m ρ c main_v24 = colOf (degFactor (m ((c.tc : Thread nD τ).loc main_arg8))) := by
  show W7 m ρ c (Proc.devRef .tc main_v24) = _
  dsimp only [W7]
  after_results
  rw [w6_v10]
  exact r_v24 _ rfl
theorem v7_v25 (c : Dev nD) : V7 m ρ c main_v25 = colOf (degFactor (m ((c.tc : Thread nD τ).loc main_arg7))) := by
  show W7 m ρ c (Proc.devRef .tc main_v25) = _
  dsimp only [W7]
  after_results
  rw [w6_v9]
  exact r_v25 _ rfl
theorem v7_v26 (c : Dev nD) : V7 m ρ c main_v26 = row128 (m ((c.tc : Thread nD τ).loc main_arg2)) := by
  show W7 m ρ c (Proc.devRef .tc main_v26) = _
  dsimp only [W7]
  after_results
  rw [w6_arg2]
  exact r_v26 _ rfl
theorem v7_arg3 (c : Dev nD) : V7 m ρ c main_arg3 = m ((c.tc : Thread nD τ).loc main_arg3) := w7_arg3 m ρ c

/-- The second layer's transformed features. -/
def H2 (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x64, .f32⟩ : BufTy).Contents (Elt Ideal))
    (x7 x8 : (⟨S800000, .i32⟩ : BufTy).Contents (Elt Ideal)) : (⟨S50000x64, .bf16⟩ : BufTy).Contents (Elt Ideal) :=
  Layer2.scaledProduct (A1 x0 x1 x7 x8) (colOf (degFactor x8)) (colOf (degFactor x7)) (row128 x2) x3

theorem w8_v27 (c : Dev nD) : W8 m ρ c (Proc.devRef .tc main_v27)
    = H2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg7)) (m ((c.tc : Thread nD τ).loc main_arg8)) := by
  refine (W8_arr m ρ c 5).trans ((Layer2.final (V7 m ρ) c).trans ?_)
  rw [v7_v23, v7_v24, v7_v25, v7_v26, v7_arg3]
  rfl

/-! ## Region 2: the second layer finalized, the linear head -/

/-- The second layer's aggregated messages. -/
def A2 (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x64, .f32⟩ : BufTy).Contents (Elt Ideal))
    (x7 x8 : (⟨S800000, .i32⟩ : BufTy).Contents (Elt Ideal)) : (⟨S50000x64, .f32⟩ : BufTy).Contents (Elt Ideal) :=
  aggregate64 (H2 x0 x1 x2 x3 x7 x8) x7 x8

set_option maxHeartbeats 4000000 in
theorem v9_v38 (c : Dev nD) : V9 m ρ c main_v38
    = A2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg7)) (m ((c.tc : Thread nD τ).loc main_arg8)) := by
  show StableHlo.after hostOps2 (W8 m ρ c) (Proc.devRef .tc main_v38) = _
  after_results
  rw [w8_arg7, w8_arg8, w8_v27]
  unfold A2 aggregate64 wrapIdx
  rfl
theorem v9_v39 (c : Dev nD) : V9 m ρ c main_v39 = colOf (degFactor (m ((c.tc : Thread nD τ).loc main_arg8))) := by
  show W9 m ρ c (Proc.devRef .tc main_v39) = _
  dsimp only [W9]
  after_results
  rw [w8_v10]
  exact r_v39 _ rfl
theorem v9_v40 (c : Dev nD) : V9 m ρ c main_v40 = row64 (m ((c.tc : Thread nD τ).loc main_arg4)) := by
  show W9 m ρ c (Proc.devRef .tc main_v40) = _
  dsimp only [W9]
  after_results
  rw [w8_arg4]
  exact r_v40 _ rfl
theorem v9_v41 (c : Dev nD) : V9 m ρ c main_v41 = row2 (m ((c.tc : Thread nD τ).loc main_arg6)) := by
  show W9 m ρ c (Proc.devRef .tc main_v41) = _
  dsimp only [W9]
  after_results
  rw [w8_arg6]
  exact r_v41 _ rfl
theorem v9_arg5 (c : Dev nD) : V9 m ρ c main_arg5 = m ((c.tc : Thread nD τ).loc main_arg5) := w9_arg5 m ρ c

/-- The program's second result (the hidden features), one expression of the arguments. -/
def hiddenK (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal))
    (x7 x8 : (⟨S800000, .i32⟩ : BufTy).Contents (Elt Ideal)) : (⟨S50000x64, .f32⟩ : BufTy).Contents (Elt Ideal) :=
  Layer3.hidden (A2 x0 x1 x2 x3 x7 x8) (colOf (degFactor x8)) (row64 x4)

/-- The program's first result (the logits), one expression of the arguments. -/
def logitsK (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S64x2, .f32⟩ : BufTy).Contents (Elt Ideal))
    (x6 : (⟨S2, .f32⟩ : BufTy).Contents (Elt Ideal))
    (x7 x8 : (⟨S800000, .i32⟩ : BufTy).Contents (Elt Ideal)) : (⟨S50000x2, .f32⟩ : BufTy).Contents (Elt Ideal) :=
  Layer3.logits (A2 x0 x1 x2 x3 x7 x8) (colOf (degFactor x8)) (row64 x4) x5 (row2 x6)

theorem w10_hidden (c : Dev nD) : W10 m ρ c (Proc.devRef .tc main_v42_0)
    = hiddenK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg7)) (m ((c.tc : Thread nD τ).loc main_arg8)) := by
  refine (W10_arr m ρ c 5).trans ((Layer3.final5 (V9 m ρ) c).trans ?_)
  rw [v9_v38, v9_v39, v9_v40]
  rfl

theorem w10_logits (c : Dev nD) : W10 m ρ c (Proc.devRef .tc main_v42_1)
    = logitsK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (W10_arr m ρ c 6).trans ((Layer3.final6 (V9 m ρ) c).trans ?_)
  rw [v9_v38, v9_v39, v9_v40, v9_arg5, v9_v41]
  rfl

end Cert.KernelIdeal.Chain

end
-- ==== Proof.ScaleLaw.lean ====
/-
  The one algebraic law of this certificate, on the extended reals.

  A graph-convolution layer scales every row of a dense product by the reciprocal square root of a (clipped) vertex
  degree. One program scales the row BEFORE the product, the other AFTER it:

      ∑ₖ (aₖ · s) · wₖ   against   (∑ₖ aₖ · wₖ) · s .

  On the extended reals a product does not distribute over a sum in general (⊤ + ⊥ = ⊥), but it does when the common
  factor `s` is a nonnegative REAL: multiplication by such an `s` is additive on all of [-∞, +∞]. The degree factor is
  of that kind whatever the edge lists hold: it is `rsqrt (max 1 d)`, and `max 1 d ≥ 1` is a real ≥ 1 or `⊤`, whose
  reciprocal square root is a real in [0, 1]. So no finiteness of the layer's input or weights is needed.
-/
import Idealize.ShloMosaic.PureOps.Ideal

noncomputable section

namespace Cert.GcnLaw

open Idealize.ShloMosaic

/-- The pattern of `1.0` denotes the real one. -/
theorem ofBits_one : Ideal.ofBits .f32 0x3F800000#32 = 1 := by
  simp [Ideal.ofBits, Ideal.ieee, -EReal.coe_mul]; norm_num

/-- The reciprocal square root of an extended real clipped below at one is a nonnegative real. -/
theorem rsqrt_clip (d : EReal) : ∃ r : ℝ, 0 ≤ r ∧ Ideal.rsqrt (max 1 d) = (r : EReal) := by
  have h1 : (1 : EReal) ≤ max 1 d := le_max_left _ _
  generalize max 1 d = y at h1
  induction y using EReal.rec with
  | bot => exact absurd h1 (not_le.mpr (by exact_mod_cast EReal.bot_lt_coe 1))
  | top => exact ⟨0, le_rfl, by simp⟩
  | coe y =>
    have hy : (1 : ℝ) ≤ y := by exact_mod_cast h1
    refine ⟨(Real.sqrt y)⁻¹, inv_nonneg.mpr (Real.sqrt_nonneg y), ?_⟩
    rw [Ideal.rsqrt_coe, if_neg (by linarith), if_neg (by linarith)]

/-- Multiplication by a nonnegative real is additive over a finite sum of extended reals. -/
theorem sum_mul_real {ι : Type*} (s : Finset ι) (t : ι → EReal) (r : ℝ) (hr : 0 ≤ r) :
    ∑ k ∈ s, t k * (r : EReal) = (∑ k ∈ s, t k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- Scaling the left factors of a contraction by a nonnegative real scales the contraction. -/
theorem scale_contraction {ι : Type*} (s : Finset ι) (a w : ι → EReal) (r : ℝ) (hr : 0 ≤ r) :
    ∑ k ∈ s, (a k * (r : EReal)) * w k = (∑ k ∈ s, a k * w k) * (r : EReal) := by
  rw [← sum_mul_real s (fun k => a k * w k) r hr]
  exact Finset.sum_congr rfl fun k _ => mul_right_comm _ _ _

end Cert.GcnLaw

end
-- ==== Proof.LibColumn.lean ====
/-
  A vector cast to a column: the keepdims layout [a] → [a, 1], read at an index.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.Bridge.lean ====
/-
  The idealized kernel program's results are the idealized reference's, as functions of the argument arrays.

  Both programs compute, on the extended reals, a two-layer graph convolution with a linear head. They differ in one
  place per layer: the kernel scales a row of the layer's input by its out-degree factor BEFORE the dense product, the
  reference scales the product's row AFTER it. The degree factor is a nonnegative real whatever the edge lists hold
  (ScaleLaw), so the two agree (`GcnLaw.scale_contraction`) — with no assumption on the features or the weights. The rest
  is the same operations in the same order: the degree factors, the edge aggregations (the same gather and scatter-add of
  equal arrays), the in-degree scaling, the biases, the clip at zero, the head.
-/
import proofs.«170401_j65687229826124_2_alg».proof.Proof.Chain
import proofs.«170401_j65687229826124_2_alg».proof.Proof.ScaleLaw
import proofs.«170401_j65687229826124_2_alg».proof.Proof.LibColumn
import proofs.«170401_j65687229826124_2_alg».proof.Proof.Gen.ReferenceIdeal.Read

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelIdeal.Chain Cert.ReferenceIdeal.Read

/-! ## The degree factors: four spellings of one function -/

theorem deg_eq (x7 : (⟨S800000, .i32⟩ : BufTy).Contents (Elt Ideal)) : degFactor x7 = val_main_v10 (F := Ideal) x7 := by
  unfold degFactor val_main_v10 val_main_v4 val_main_call0_v1 val_main_call0_v0 val_main_cst_1 val_main_v3 val_main_v1 val_main_v2 val_main_v0 val_main_cst val_main_cst_0
  rfl
theorem deg_eq24 (x8 : (⟨S800000, .i32⟩ : BufTy).Contents (Elt Ideal)) : degFactor x8 = val_main_v24 (F := Ideal) x8 := by
  unfold degFactor val_main_v24 val_main_v8 val_main_call1_v1 val_main_call1_v0 val_main_cst_3 val_main_v7 val_main_v5 val_main_v6 val_main_v0 val_main_cst val_main_cst_2
  rfl
theorem deg_eq42 (x7 : (⟨S800000, .i32⟩ : BufTy).Contents (Elt Ideal)) : degFactor x7 = val_main_v42 (F := Ideal) x7 := by
  unfold degFactor val_main_v42 val_main_v36 val_main_call3_v1 val_main_call3_v0 val_main_cst_8 val_main_v35 val_main_v33 val_main_v34 val_main_v32 val_main_cst_6 val_main_cst_7
  rfl
theorem deg_eq56 (x8 : (⟨S800000, .i32⟩ : BufTy).Contents (Elt Ideal)) : degFactor x8 = val_main_v56 (F := Ideal) x8 := by
  unfold degFactor val_main_v56 val_main_v40 val_main_call4_v1 val_main_call4_v0 val_main_cst_10 val_main_v39 val_main_v37 val_main_v38 val_main_v32 val_main_cst_6 val_main_cst_9
  rfl

/-- A vertex's degree factor is a nonnegative real. -/
theorem degFactor_real (x : (⟨S800000, .i32⟩ : BufTy).Contents (Elt Ideal)) (j : S50000.Idx) : ∃ r : ℝ, 0 ≤ r ∧ degFactor x j = (r : EReal) := by
  rw [deg_eq, val_main_v10_apply, val_main_v4_apply, val_main_call0_v1_apply, val_main_call0_v0_apply, val_main_cst_1_apply]
  simp only [Ideal.hostUnary_rsqrt_def, Ideal.maximumf_def, Ideal.ofBits_def]
  rw [GcnLaw.ofBits_one]
  exact GcnLaw.rsqrt_clip _

/-- The degree column at row p is the vertex's degree factor. -/
theorem col_apply (v : (⟨S50000, .f32⟩ : BufTy).Contents (Elt Ideal)) (p : Fin 50000) :
    colOf v (ix2 p (0 : Fin 1)) = v (ix1 p) := by
  unfold colOf; exact shapeCast_a_a1_apply v shapeCasts_S50000_S50000x1 p 0
theorem row128_apply (b : (⟨S128, .f32⟩ : BufTy).Contents (Elt Ideal)) (k : Fin 128) : row128 b (ix2 (0 : Fin 1) k) = b (ix1 k) := by
  unfold row128; exact shapeCast_a_1a_apply b shapeCasts_S128_S1x128 0 k
theorem row64_apply (b : (⟨S64, .f32⟩ : BufTy).Contents (Elt Ideal)) (k : Fin 64) : row64 b (ix2 (0 : Fin 1) k) = b (ix1 k) := by
  unfold row64; exact shapeCast_a_1a_apply b shapeCasts_S64_S1x64 0 k
theorem row2_apply (b : (⟨S2, .f32⟩ : BufTy).Contents (Elt Ideal)) (k : Fin 2) : row2 b (ix2 (0 : Fin 1) k) = b (ix1 k) := by
  unfold row2; exact shapeCast_a_1a_apply b shapeCasts_S2_S1x2 0 k

/-- A change to a wider float format is the identity on the extended reals. -/
theorem extf_id {s : Shape} (a : FVec Ideal s .bf16) : extf .f32 a bitsLt_bf16_f32 = a := rfl

/-! ## Layer 1 -/

theorem h1_eq (x0 : (⟨S50000x256, .f32⟩ : BufTy).Contents (Elt Ideal)) (x1 : (⟨S256x128, .f32⟩ : BufTy).Contents (Elt Ideal)) (x7 : (⟨S800000, .i32⟩ : BufTy).Contents (Elt Ideal)) : H1 x0 x1 x7 = val_main_v13 (F := Ideal) x0 x1 x7 := by
  funext i
  obtain ⟨r, hr, hs⟩ := degFactor_real x7 (ix1 (⟨(i 0).val, (i 0).isLt⟩ : Fin 50000))
  have hj : idx_main_v11 (idx_main_v12 i) = ix1 (⟨(i 0).val, (i 0).isLt⟩ : Fin 50000) := funext fun a => by match a with | ⟨0, _⟩ => rfl
  rw [val_main_v13_apply, val_main_v9_apply, val_main_v12_apply, val_main_v11_apply, hj, ← deg_eq, hs, Ideal.mulf_def]
  unfold H1 Layer1.scaledProduct
  rw [col_apply, hs]
  refine (GcnLaw.scale_contraction Finset.univ (fun k : Fin 256 => x0 (ix2 (⟨(i 0).val, (i 0).isLt⟩ : Fin 50000) k))
    (fun k : Fin 256 => x1 (ix2 k (⟨(i 1).val, (i 1).isLt⟩ : Fin 128))) r hr).trans ?_
  refine congrArg (· * (r : EReal)) (Finset.sum_congr rfl fun k _ => ?_)
  exact congrArg₂ (· * ·) (congrArg x0 (funext fun a => by match a with | ⟨0, _⟩ => rfl | ⟨1, _⟩ => rfl)) (congrArg x1 (funext fun a => by match a with | ⟨0, _⟩ => rfl | ⟨1, _⟩ => rfl))

theorem a1_eq (x0 : (⟨S50000x256, .f32⟩ : BufTy).Contents (Elt Ideal)) (x1 : (⟨S256x128, .f32⟩ : BufTy).Contents (Elt Ideal)) (x7 x8 : (⟨S800000, .i32⟩ : BufTy).Contents (Elt Ideal)) : A1 x0 x1 x7 x8 = val_main_v23 (F := Ideal) x0 x1 x7 x8 := by
  unfold A1
  rw [h1_eq]
  unfold aggregate128 wrapIdx val_main_v23 val_main_v20 val_main_v21 val_main_v22 val_main_v19 val_main_v18 val_main_v17 val_main_v15 val_main_v16 val_main_v14 val_main_c val_main_c_4 val_main_cst_5
  generalize val_main_v13 (F := Ideal) x0 x1 x7 = H
  rw [extf_id]
  rfl

/-! ## Layer 2 -/

/-- The hidden activation, as the kernel and as the reference spell it. -/
theorem act_eq (x0 : (⟨S50000x256, .f32⟩ : BufTy).Contents (Elt Ideal)) (x1 : (⟨S256x128, .f32⟩ : BufTy).Contents (Elt Ideal)) (x2 : (⟨S128, .f32⟩ : BufTy).Contents (Elt Ideal)) (x7 x8 : (⟨S800000, .i32⟩ : BufTy).Contents (Elt Ideal)) (p : Fin 50000) (k : Fin 128) :
    Layer2.hiddenAct (A1 x0 x1 x7 x8) (colOf (degFactor x8)) (row128 x2) p k = val_main_v31 (F := Ideal) x0 x1 x2 x7 x8 (ix2 p k) := by
  have h1 : idx_main_v25 (idx_main_v26 (ix2 p k)) = ix1 p := funext fun a => by match a with | ⟨0, _⟩ => rfl
  have h2 : idx_main_v28 (idx_main_v29 (ix2 p k)) = ix1 k := funext fun a => by match a with | ⟨0, _⟩ => rfl
  rw [val_main_v31_apply, val_main_v30_apply, val_main_v27_apply, val_main_v26_apply, val_main_v25_apply, val_main_v29_apply, val_main_v28_apply,
    val_main_call2_v0_apply, val_main_call2_cst_apply, h1, h2, ← a1_eq, ← deg_eq24]
  unfold Layer2.hiddenAct
  rw [col_apply, row128_apply]
  rfl

theorem h2_eq (x0 : (⟨S50000x256, .f32⟩ : BufTy).Contents (Elt Ideal)) (x1 : (⟨S256x128, .f32⟩ : BufTy).Contents (Elt Ideal)) (x2 : (⟨S128, .f32⟩ : BufTy).Contents (Elt Ideal)) (x3 : (⟨S128x64, .f32⟩ : BufTy).Contents (Elt Ideal)) (x7 x8 : (⟨S800000, .i32⟩ : BufTy).Contents (Elt Ideal)) :
    H2 x0 x1 x2 x3 x7 x8 = val_main_v45 (F := Ideal) x0 x1 x2 x3 x7 x8 := by
  funext i
  obtain ⟨r, hr, hs⟩ := degFactor_real x7 (ix1 (⟨(i 0).val, (i 0).isLt⟩ : Fin 50000))
  have hj : idx_main_v43 (idx_main_v44 i) = ix1 (⟨(i 0).val, (i 0).isLt⟩ : Fin 50000) := funext fun a => by match a with | ⟨0, _⟩ => rfl
  rw [val_main_v45_apply, val_main_v41_apply, val_main_v44_apply, val_main_v43_apply, hj, ← deg_eq42, hs, Ideal.mulf_def]
  unfold H2 Layer2.scaledProduct
  rw [col_apply, hs]
  refine (GcnLaw.scale_contraction Finset.univ (fun k : Fin 128 => Layer2.hiddenAct (A1 x0 x1 x7 x8) (colOf (degFactor x8)) (row128 x2) ⟨(i 0).val, (i 0).isLt⟩ k)
    (fun k : Fin 128 => x3 (ix2 k (⟨(i 1).val, (i 1).isLt⟩ : Fin 64))) r hr).trans ?_
  refine congrArg (· * (r : EReal)) (Finset.sum_congr rfl fun k _ => ?_)
  refine congrArg₂ (· * ·) ((act_eq x0 x1 x2 x7 x8 _ k).trans (congrArg (val_main_v31 (F := Ideal) x0 x1 x2 x7 x8) (funext fun a => by match a with | ⟨0, _⟩ => rfl | ⟨1, _⟩ => rfl))) (congrArg x3 (funext fun a => by match a with | ⟨0, _⟩ => rfl | ⟨1, _⟩ => rfl))

theorem a2_eq (x0 : (⟨S50000x256, .f32⟩ : BufTy).Contents (Elt Ideal)) (x1 : (⟨S256x128, .f32⟩ : BufTy).Contents (Elt Ideal)) (x2 : (⟨S128, .f32⟩ : BufTy).Contents (Elt Ideal)) (x3 : (⟨S128x64, .f32⟩ : BufTy).Contents (Elt Ideal)) (x7 x8 : (⟨S800000, .i32⟩ : BufTy).Contents (Elt Ideal)) :
    A2 x0 x1 x2 x3 x7 x8 = val_main_v55 (F := Ideal) x0 x1 x2 x3 x7 x8 := by
  unfold A2
  rw [h2_eq]
  unfold aggregate64 wrapIdx val_main_v55 val_main_v52 val_main_v53 val_main_v54 val_main_v51 val_main_v50 val_main_v49 val_main_v47 val_main_v48 val_main_v46 val_main_c_11 val_main_c_12 val_main_cst_13
  generalize val_main_v45 (F := Ideal) x0 x1 x2 x3 x7 x8 = H
  rw [extf_id]
  rfl

/-! ## The results -/

/-- A hidden feature, as the kernel and as the reference spell it. -/
theorem hiddenAt_eq (x0 : (⟨S50000x256, .f32⟩ : BufTy).Contents (Elt Ideal)) (x1 : (⟨S256x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x7 x8 : (⟨S800000, .i32⟩ : BufTy).Contents (Elt Ideal)) (p : Fin 50000) (k : Fin 64) :
    Layer3.hiddenAt (A2 x0 x1 x2 x3 x7 x8) (colOf (degFactor x8)) (row64 x4) p k = val_main_v62 (F := Ideal) x0 x1 x2 x3 x4 x7 x8 (ix2 p k) := by
  have h1 : idx_main_v57 (idx_main_v58 (ix2 p k)) = ix1 p := funext fun a => by match a with | ⟨0, _⟩ => rfl
  have h2 : idx_main_v60 (idx_main_v61 (ix2 p k)) = ix1 k := funext fun a => by match a with | ⟨0, _⟩ => rfl
  rw [val_main_v62_apply, val_main_v59_apply, val_main_v58_apply, val_main_v57_apply, val_main_v61_apply, val_main_v60_apply, h1, h2, ← a2_eq, ← deg_eq56]
  unfold Layer3.hiddenAt
  rw [col_apply, row64_apply]
  rfl

theorem hidden_eq (x0 : (⟨S50000x256, .f32⟩ : BufTy).Contents (Elt Ideal)) (x1 : (⟨S256x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x7 x8 : (⟨S800000, .i32⟩ : BufTy).Contents (Elt Ideal)) :
    hiddenK x0 x1 x2 x3 x4 x7 x8 = val_main_v62 (F := Ideal) x0 x1 x2 x3 x4 x7 x8 := by
  funext i
  unfold hiddenK Layer3.hidden
  exact (hiddenAt_eq x0 x1 x2 x3 x4 x7 x8 _ _).trans (congrArg (val_main_v62 (F := Ideal) x0 x1 x2 x3 x4 x7 x8) (funext fun a => by match a with | ⟨0, _⟩ => rfl | ⟨1, _⟩ => rfl))

theorem logits_eq (x0 : (⟨S50000x256, .f32⟩ : BufTy).Contents (Elt Ideal)) (x1 : (⟨S256x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x2, .f32⟩ : BufTy).Contents (Elt Ideal)) (x6 : (⟨S2, .f32⟩ : BufTy).Contents (Elt Ideal)) (x7 x8 : (⟨S800000, .i32⟩ : BufTy).Contents (Elt Ideal)) :
    logitsK x0 x1 x2 x3 x4 x5 x6 x7 x8 = val_main_v66 (F := Ideal) x0 x1 x2 x3 x4 x5 x6 x7 x8 := by
  funext i
  have hb : idx_main_v64 (idx_main_v65 i) = ix1 (⟨(i 1).val, (i 1).isLt⟩ : Fin 2) := funext fun a => by match a with | ⟨0, _⟩ => rfl
  rw [val_main_v66_apply, val_main_v63_apply, val_main_v65_apply, val_main_v64_apply, hb, Ideal.addf_def]
  unfold logitsK Layer3.logits
  rw [row2_apply]
  refine congrArg (· + x6 (ix1 (⟨(i 1).val, (i 1).isLt⟩ : Fin 2))) (Finset.sum_congr rfl fun k _ => ?_)
  refine congrArg₂ (· * ·) ((hiddenAt_eq x0 x1 x2 x3 x4 x7 x8 _ k).trans (congrArg (val_main_v62 (F := Ideal) x0 x1 x2 x3 x4 x7 x8) (funext fun a => by match a with | ⟨0, _⟩ => rfl | ⟨1, _⟩ => rfl))) (congrArg x5 (funext fun a => by match a with | ⟨0, _⟩ => rfl | ⟨1, _⟩ => rfl))

end Cert.Bridge

end
-- ==== Proof.lean ====
/-
  The certificate of a two-layer graph convolution with a linear head: a kernel program (three tiled kernel regions among
  host gathers and scatter-adds) against its plain reference, equal on the extended reals.

  The three frames: the two kernel programs' are the generated launches of their segments; the reference's is its run
  with the results dropped. Nothing was rewritten by the idealization, so `preserves` asks nothing.

  `algebraic`: the kernel program's two results are one expression of the argument arrays (Chain: the fold through the
  host stretches and the regions' whole-array functions, Layer1 – Layer3), the reference's are its run's composed term,
  and the two expressions are one function of the arguments (Bridge). The only law used is that scaling a row by a
  NONNEGATIVE REAL commutes with contracting it against the weights (ScaleLaw); the degree factor is such a real whatever
  the edge lists hold, so the precondition (finite float inputs) is not used by the proof.
-/
import proofs.«170401_j65687229826124_2_alg».proof.Defs
import proofs.«170401_j65687229826124_2_alg».proof.Proof.Gen.Kernel
import proofs.«170401_j65687229826124_2_alg».proof.Proof.Gen.Kernel.Skeleton
import proofs.«170401_j65687229826124_2_alg».proof.Proof.Gen.Kernel.Launch
import proofs.«170401_j65687229826124_2_alg».proof.Proof.Gen.Kernel.Points
import proofs.«170401_j65687229826124_2_alg».proof.Proof.Gen.Kernel.Frame
import proofs.«170401_j65687229826124_2_alg».proof.Proof.Gen.KernelIdeal
import proofs.«170401_j65687229826124_2_alg».proof.Proof.Gen.KernelIdeal.Skeleton
import proofs.«170401_j65687229826124_2_alg».proof.Proof.Gen.KernelIdeal.Launch
import proofs.«170401_j65687229826124_2_alg».proof.Proof.Gen.KernelIdeal.Points
import proofs.«170401_j65687229826124_2_alg».proof.Proof.Gen.KernelIdeal.Frame
import proofs.«170401_j65687229826124_2_alg».proof.Proof.Gen.ReferenceIdeal
import proofs.«170401_j65687229826124_2_alg».proof.Proof.Gen.ReferenceIdeal.Run
import proofs.«170401_j65687229826124_2_alg».proof.Proof.Gen.ReferenceIdeal.Read
import proofs.«170401_j65687229826124_2_alg».proof.Proof.Gen.Pre_finite_inputs
import proofs.«170401_j65687229826124_2_alg».proof.Proof.KRun
import proofs.«170401_j65687229826124_2_alg».proof.Proof.Chain
import proofs.«170401_j65687229826124_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the logits and the hidden features at one function of the (agreeing) arguments. -/
theorem algebraic : Cert.algebraic_KernelIdeal_ReferenceIdeal := by
  intro m ρ m' ρ' _ hagree
  refine ⟨fun c => Cert.KernelIdeal.Chain.logitsK (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7))
      (m (c.tc.loc Cert.KernelIdeal.main_arg8)),
    fun c => Cert.KernelIdeal.Chain.hiddenK (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg7)) (m (c.tc.loc Cert.KernelIdeal.main_arg8)), ?_, ?_⟩
  · exact (θ_run Cert.KernelIdeal.defs _ _).mono
      (fun _ h c => ⟨(h c).1.trans (Cert.KernelIdeal.Chain.w10_logits m ρ c), (h c).2.1.trans (Cert.KernelIdeal.Chain.w10_hidden m ρ c), (h c).2.2⟩)
      (Cert.KernelIdeal.Named.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      rw [Cert.ReferenceIdeal.Read.val_main_v66_eq, e0, e1, e2, e3, e4, e5, e6, e7, e8]
      exact (Cert.Bridge.logits_eq _ _ _ _ _ _ _ _ _).symm
    · obtain ⟨e0, e1, e2, e3, e4, e5, e6, e7, e8⟩ := hagree c
      rw [Cert.ReferenceIdeal.Read.val_main_v62_eq, e0, e1, e2, e3, e4, e7, e8]
      exact (Cert.Bridge.hidden_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
